-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : FVec F S128x64 .f32) (main_arg2 : FVec F S64 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 45
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S1x64, .f32⟩
  | .hbm, ⟨44, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowScale.lean ====
/-
  A per-row scale and a bias row beside a matrix: the re-shapings and broadcasts that put a vector of one value
  per row, or one value per column, beside an a×b array, read at an index — in the spelling of a kernel body
  (a column a×1 or a row 1×b broadcast to a×b) and in the host's (a vector made a column or a row by
  broadcast_in_dim or by a reshape, then broadcast_in_dim to a×b). Nothing here mentions a program.
-/
import Idealize.ShloMosaic.Lib.ValueIdx
import Idealize.ShloMosaic.Lib.Pipeline.Value

namespace Cert.Lib.RowScale

open Idealize.ShloMosaic Idealize.ShloMosaic.ValueIdx

variable {α : Type} {a b : Nat}

/-! ## The kernel body's spelling -/

/-- An a×1 column broadcast across b columns reads, at (p, q), the column's entry p. -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-! ## The host's spelling -/

/-- A vector of a entries made an a×1 column (broadcast_in_dim along axis 0) reads, at (p, 0), the vector's entry p. -/
theorem column_apply (x : (⟨1, ![a]⟩ : Shape).Idx → α) (h : (⟨1, ![a]⟩ : Shape).BroadcastsInDim ⟨2, ![a, 1]⟩ ![0])
    (p : Fin a) (z : Fin 1) : broadcastInDim ⟨2, ![a, 1]⟩ ![0] h x (ix2 p z) = x (ix1 p) :=
  broadcastInDim_apply _ h x _ _ fun ax => by
    match ax with
    | ⟨0, _⟩ =>
      show p.val = if a = 1 then 0 else p.val
      split_ifs with ha
      · have := p.isLt; omega
      · rfl

/-- A vector of a entries re-shaped to an a×1 column reads, at (p, 0), the vector's entry p. -/
theorem reshape_column_apply (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) := by
  refine shapeCast_apply x h _ _ ?_
  rw [Shape.rowMajor_val_one, Shape.rowMajor_val_two]
  show p.val = p.val * 1 + z.val
  have := z.isLt
  omega

/-- A vector of b entries made a 1×b row (broadcast_in_dim along axis 1) reads, at (0, q), the vector's entry q. -/
theorem row_apply (x : (⟨1, ![b]⟩ : Shape).Idx → α) (h : (⟨1, ![b]⟩ : Shape).BroadcastsInDim ⟨2, ![1, b]⟩ ![1])
    (z : Fin 1) (q : Fin b) : broadcastInDim ⟨2, ![1, b]⟩ ![1] h x (ix2 z q) = x (ix1 q) :=
  broadcastInDim_apply _ h x _ _ fun ax => by
    match ax with
    | ⟨0, _⟩ =>
      show q.val = if b = 1 then 0 else q.val
      split_ifs with hb
      · have := q.isLt; omega
      · rfl

/-- A vector of b entries re-shaped to a 1×b row reads, at (0, q), the vector's entry q. -/
theorem reshape_row_apply (x : (⟨1, ![b]⟩ : Shape).Idx → α) (h : (⟨1, ![b]⟩ : Shape).ShapeCasts ⟨2, ![1, b]⟩)
    (z : Fin 1) (q : Fin b) : shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- An a×1 column broadcast_in_dim'd to a×b (axes kept in place) reads, at (p, q), the column's entry p. -/
theorem bcast_col_apply (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p 0) :=
  broadcastInDim_apply _ h x _ _ fun ax => by
    match ax with
    | ⟨0, _⟩ =>
      show p.val = if a = 1 then 0 else p.val
      split_ifs with ha
      · have := p.isLt; omega
      · rfl
    | ⟨1, _⟩ => rfl

/-- A 1×b row broadcast_in_dim'd to a×b (axes kept in place) reads, at (p, q), the row's entry q. -/
theorem bcast_row_apply (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 0 q) :=
  broadcastInDim_apply _ h x _ _ fun ax => by
    match ax with
    | ⟨0, _⟩ => rfl
    | ⟨1, _⟩ =>
      show q.val = if b = 1 then 0 else q.val
      split_ifs with hb
      · have := q.isLt; omega
      · rfl

end Cert.Lib.RowScale
-- ==== Proof.Body.lean ====
/-
  The two kernel bodies, read at an index on the extended reals.

  The first body multiplies each row of its 5000×128 block by that row's scale (a 5000×1 column, broadcast across
  the row) and takes the product with the 128×64 weight matrix, accumulated into zeros; the narrowing of both
  operands to bf16 is the identity on the extended reals. So its value at (p, q) is the sum over k of
  (x(p, k) · n(p)) · W(k, q). The second body multiplies each row of its 5000×64 block by that row's scale and adds
  the bias row: its value at (p, q) is a(p, q) · n(p) + b(q).
-/
import proofs.«160085_j8624294330605_1_alg».proof.Proof.Gen.KernelIdeal.Skeleton
import proofs.«160085_j8624294330605_1_alg».proof.Proof.LibBlockReads
import proofs.«160085_j8624294330605_1_alg».proof.Proof.LibRowScale
import Idealize.ShloMosaic.Lib.ValueIdx
import Idealize.ShloMosaic.Lib.Pipeline.Value

open scoped BigOperators

noncomputable section

namespace Cert.KernelIdeal.Body

open Idealize.ShloMosaic Idealize.ShloMosaic.ValueIdx Cert.KernelIdeal Cert.KernelIdeal.Gen

/-- The scaled product's body at (p, q): the sum over k of (x(p, k) · n(p)) · W(k, q). -/
theorem scaledProduct_apply (x : Vec Ideal S5000x128 .f32) (n : Vec Ideal S5000x1 .f32) (w : Vec Ideal S128x64 .f32)
    (p : Fin 5000) (q : Fin 64) :
    k0_pay1 (F := Ideal) x n w (ix2 p q) = ∑ k : Fin 128, (x (ix2 p k) * n (ix2 p 0)) * w (ix2 k q) := by
  unfold k0_pay1
  refine (Cert.Lib.BlockReads.matmul_zero_rows_apply dot_S5000x128_S128x64_S5000x64_1_0_0_1_n_n rfl rfl rfl rfl rfl rfl
    none _ _ p q).trans ?_
  refine Finset.sum_congr rfl fun k _ => ?_
  rw [truncf_apply, truncf_apply, mulf_apply, shapeCast_self, Cert.Lib.RowScale.broadcast_col_apply]

/-- The normalising body at (p, q): a(p, q) · n(p) + b(q). -/
theorem scaleAddBias_apply (a : Vec Ideal S5000x64 .f32) (n : Vec Ideal S5000x1 .f32) (b : Vec Ideal S1x64 .f32)
    (p : Fin 5000) (q : Fin 64) :
    k1_pay1 (F := Ideal) a n b (ix2 p q) = a (ix2 p q) * n (ix2 p 0) + b (ix2 0 q) := by
  unfold k1_pay1
  rw [addf_apply, mulf_apply, shapeCast_self, shapeCast_self, shapeCast_self,
    Cert.Lib.RowScale.broadcast_col_apply, Cert.Lib.BlockReads.broadcast_row_apply]

end Cert.KernelIdeal.Body

end
-- ==== Proof.Blocks.lean ====
/-
  From blocks to whole arrays, for each of the two kernel launches, at any contents V of the buffers when the
  launch is entered.

  Both launches walk the 100000 rows in 20 blocks of 5000 rows: point t reads rows 5000·t … 5000·t + 4999 of the
  row-indexed operands (and the whole weight matrix, or the whole bias row) and writes the same rows of the result.
  An entry of either result depends only on its own row of the row-indexed operands, so what point t writes back
  is block t of ONE whole-array function: for the first launch the scaled product
  (i, j) ↦ Σ_k (x(i, k) · n(i)) · W(k, j), for the second (i, j) ↦ a(i, j) · n(i) + b(j). The 20 blocks tile the
  result, so after the launch the result array is that function of the operand arrays.
-/
import proofs.«160085_j8624294330605_1_alg».proof.Proof.Gen.KernelIdeal.Frame
import proofs.«160085_j8624294330605_1_alg».proof.Proof.Body
import Idealize.ShloMosaic.Lib.Pipeline.Value

open scoped BigOperators

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

/-! ## The two whole-array functions -/

/-- Rows scaled, then multiplied by the weights: (i, j) ↦ Σ_k (x(i, k) · n(i)) · W(k, j). -/
def scaledProduct (x : S100000x128.Idx → EReal) (n : S100000x1.Idx → EReal) (w : S128x64.Idx → EReal) :
    S100000x64.Idx → EReal :=
  fun i => ∑ k : Fin 128, (x (ix2 (i 0) k) * n (ix2 (i 0) 0)) * w (ix2 k (i 1))

/-- Rows scaled, then the bias row added: (i, j) ↦ a(i, j) · n(i) + b(j). -/
def scaleAddBias (a : S100000x64.Idx → EReal) (n : S100000x1.Idx → EReal) (b : S1x64.Idx → EReal) :
    S100000x64.Idx → EReal :=
  fun i => a i * n (ix2 (i 0) 0) + b (ix2 0 (i 1))

/-! ## Rows of a block -/

theorem zero_offsets : (![0, 0] : Fin 2 → Nat) = fun _ => 0 := funext fun a => by fin_cases a <;> rfl

/-- Row p of block t is row 5000·t + p of the array. -/
def row (t : Fin 20) (p : Fin 5000) : Fin 100000 := ⟨t.val * 5000 + p.val, by have := t.isLt; have := p.isLt; omega⟩

/-! ## The first launch -/

section First

variable (V : (c : Dev nD) → (b : Ref sig .tc) → Buf (Elt Ideal) ((c : Thread nD τ).loc b))

/-- The printed index maps, decided over the grid: the row-indexed windows sit at block (t, 0), the weights at (0, 0). -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Where an entry of each window's block at point t sits in its array. -/
theorem emb0_0 (t : Fin cfg0.N) (p : Fin 5000) (k : Fin 128) :
    ((cfg0.win 0).blk t).view.emb (ix2 p k) = ix2 (row t p) k := by
  obtain ⟨e0, e1, -⟩ := index_facts0 t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem emb0_1 (t : Fin cfg0.N) (p : Fin 5000) (z : Fin 1) :
    ((cfg0.win 1).blk t).view.emb (ix2 p z) = ix2 (row t p) z := by
  obtain ⟨-, -, e0, e1, -⟩ := index_facts0 t
  funext a; apply Fin.ext
  match a with
  | ⟨0, _⟩ => show win0_1.index t (0 : Fin 2) * 5000 + 1 * p.val = t.val * 5000 + p.val; rw [e0]; omega
  | ⟨1, _⟩ => show win0_1.index t (1 : Fin 2) * 1 + 1 * z.val = z.val; rw [e1]; omega

theorem emb0_2 (t : Fin cfg0.N) (k : Fin 128) (q : Fin 64) :
    ((cfg0.win 2).blk t).view.emb (ix2 k q) = ix2 k q := by
  obtain ⟨-, -, -, -, e0, e1, -⟩ := index_facts0 t
  funext a; apply Fin.ext
  match a with
  | ⟨0, _⟩ => show win0_2.index t (0 : Fin 2) * 128 + 1 * k.val = k.val; rw [e0]; omega
  | ⟨1, _⟩ => show win0_2.index t (1 : Fin 2) * 64 + 1 * q.val = q.val; rw [e1]; omega

theorem emb0_3 (t : Fin cfg0.N) (p : Fin 5000) (q : Fin 64) :
    ((cfg0.win 3).blk t).view.emb (ix2 p q) = ix2 (row t p) q := by
  obtain ⟨-, -, -, -, -, -, e0, e1⟩ := index_facts0 t
  funext a; apply Fin.ext
  match a with
  | ⟨0, _⟩ => show win0_3.index t (0 : Fin 2) * 5000 + 1 * p.val = t.val * 5000 + p.val; rw [e0]; omega
  | ⟨1, _⟩ => show win0_3.index t (1 : Fin 2) * 64 + 1 * q.val = q.val; rw [e1]; omega

/-- The input blocks at point t are rows 5000·t … of the row-indexed operands, and all of the weights. -/
theorem block0_0 (c : Dev nD) (t : Fin cfg0.N) (p : Fin 5000) (k : Fin 128) :
    iblk0 V c 0 t (ix2 p k) = (V c main_arg0 : S100000x128.Idx → EReal) (ix2 (row t p) k) := by
  unfold iblk0
  rw [View.read_apply]
  show (V c main_arg0 : S100000x128.Idx → EReal) (((cfg0.win 0).blk t).view.emb (ix2 p k)) = _
  exact congrArg (V c main_arg0 : S100000x128.Idx → EReal) (emb0_0 t p k)

theorem block0_1 (c : Dev nD) (t : Fin cfg0.N) (p : Fin 5000) (z : Fin 1) :
    iblk0 V c 1 t (ix2 p z) = (V c main_v15 : S100000x1.Idx → EReal) (ix2 (row t p) z) := by
  unfold iblk0
  rw [View.read_apply]
  show (V c main_v15 : S100000x1.Idx → EReal) (((cfg0.win 1).blk t).view.emb (ix2 p z)) = _
  exact congrArg (V c main_v15 : S100000x1.Idx → EReal) (emb0_1 t p z)

theorem block0_2 (c : Dev nD) (t : Fin cfg0.N) (k : Fin 128) (q : Fin 64) :
    iblk0 V c 2 t (ix2 k q) = (V c main_arg1 : S128x64.Idx → EReal) (ix2 k q) := by
  unfold iblk0
  rw [View.read_apply]
  show (V c main_arg1 : S128x64.Idx → EReal) (((cfg0.win 2).blk t).view.emb (ix2 k q)) = _
  exact congrArg (V c main_arg1 : S128x64.Idx → EReal) (emb0_2 t k q)

/-- What point t writes back is block t of the scaled product of the operand arrays as the launch finds them. -/
theorem flushed0_eq (c : Dev nD) (t : Fin cfg0.N) :
    (dat0 V c).flushed 3 t = ((cfg0.win 3).blk t).view.read (Elt Ideal)
      (scaledProduct (V c main_arg0) (V c main_v15) (V c main_arg1)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S5000x1) zero_offsets,
    View.ld_unit_zero (S := S128x64) zero_offsets]
  funext y
  obtain ⟨p, q, rfl⟩ : ∃ (p : Fin 5000) (q : Fin 64), y = ix2 p q := ⟨y 0, y 1, eq_ix2 y⟩
  refine (Body.scaledProduct_apply (iblk0 V c 0 t) (iblk0 V c 1 t) (iblk0 V c 2 t) p q).trans ?_
  rw [View.read_apply]
  show _ = scaledProduct (V c main_arg0) (V c main_v15) (V c main_arg1) (((cfg0.win 3).blk t).view.emb (ix2 p q))
  rw [emb0_3 t p q]
  refine Finset.sum_congr rfl fun k _ => ?_
  rw [block0_0 V c t p k, block0_1 V c t p 0, block0_2 V c t k q]

/-- An index of the result is in point t's block iff its row is among rows 5000·t … 5000·t + 4999. -/
theorem mem_block0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- Every index of the result is in the block of the point its row falls in. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by omega
  obtain ⟨-, -, -, -, -, -, e0, e1⟩ := index_facts0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e1]
    omega

/-- After the first launch its result array is the scaled product of the operand arrays as it found them. -/
theorem final0 (c : Dev nD) :
    (dat0 V c).arrAt 3 cfg0.N = scaledProduct (V c main_arg0) (V c main_v15) (V c main_arg1) :=
  (dat0 V c).arrAt_eq_of_cover 3 (scaledProduct (V c main_arg0) (V c main_v15) (V c main_arg1))
    (fun t _ => flushed0_eq V c t) cover0

end First

/-! ## The second launch -/

section Second

variable (V : (c : Dev nD) → (b : Ref sig .tc) → Buf (Elt Ideal) ((c : Thread nD τ).loc b))

/-- The printed index maps, decided over the grid: the row-indexed windows sit at block (t, 0), the bias row at (0, 0). -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Where an entry of each window's block at point t sits in its array. -/
theorem emb1_0 (t : Fin cfg1.N) (p : Fin 5000) (q : Fin 64) :
    ((cfg1.win 0).blk t).view.emb (ix2 p q) = ix2 (row t p) q := by
  obtain ⟨e0, e1, -⟩ := index_facts1 t
  funext a; apply Fin.ext
  match a with
  | ⟨0, _⟩ => show win1_0.index t (0 : Fin 2) * 5000 + 1 * p.val = t.val * 5000 + p.val; rw [e0]; omega
  | ⟨1, _⟩ => show win1_0.index t (1 : Fin 2) * 64 + 1 * q.val = q.val; rw [e1]; omega

theorem emb1_1 (t : Fin cfg1.N) (p : Fin 5000) (z : Fin 1) :
    ((cfg1.win 1).blk t).view.emb (ix2 p z) = ix2 (row t p) z := by
  obtain ⟨-, -, e0, e1, -⟩ := index_facts1 t
  funext a; apply Fin.ext
  match a with
  | ⟨0, _⟩ => show win1_1.index t (0 : Fin 2) * 5000 + 1 * p.val = t.val * 5000 + p.val; rw [e0]; omega
  | ⟨1, _⟩ => show win1_1.index t (1 : Fin 2) * 1 + 1 * z.val = z.val; rw [e1]; omega

theorem emb1_2 (t : Fin cfg1.N) (z : Fin 1) (q : Fin 64) :
    ((cfg1.win 2).blk t).view.emb (ix2 z q) = ix2 z q := by
  obtain ⟨-, -, -, -, e0, e1, -⟩ := index_facts1 t
  funext a; apply Fin.ext
  match a with
  | ⟨0, _⟩ => show win1_2.index t (0 : Fin 2) * 1 + 1 * z.val = z.val; rw [e0]; omega
  | ⟨1, _⟩ => show win1_2.index t (1 : Fin 2) * 64 + 1 * q.val = q.val; rw [e1]; omega

theorem emb1_3 (t : Fin cfg1.N) (p : Fin 5000) (q : Fin 64) :
    ((cfg1.win 3).blk t).view.emb (ix2 p q) = ix2 (row t p) q := by
  obtain ⟨-, -, -, -, -, -, e0, e1⟩ := index_facts1 t
  funext a; apply Fin.ext
  match a with
  | ⟨0, _⟩ => show win1_3.index t (0 : Fin 2) * 5000 + 1 * p.val = t.val * 5000 + p.val; rw [e0]; omega
  | ⟨1, _⟩ => show win1_3.index t (1 : Fin 2) * 64 + 1 * q.val = q.val; rw [e1]; omega

/-- The input blocks at point t are rows 5000·t … of the row-indexed operands, and the whole bias row. -/
theorem block1_0 (c : Dev nD) (t : Fin cfg1.N) (p : Fin 5000) (q : Fin 64) :
    iblk1 V c 0 t (ix2 p q) = (V c main_v26 : S100000x64.Idx → EReal) (ix2 (row t p) q) := by
  unfold iblk1
  rw [View.read_apply]
  show (V c main_v26 : S100000x64.Idx → EReal) (((cfg1.win 0).blk t).view.emb (ix2 p q)) = _
  exact congrArg (V c main_v26 : S100000x64.Idx → EReal) (emb1_0 t p q)

theorem block1_1 (c : Dev nD) (t : Fin cfg1.N) (p : Fin 5000) (z : Fin 1) :
    iblk1 V c 1 t (ix2 p z) = (V c main_v27 : S100000x1.Idx → EReal) (ix2 (row t p) z) := by
  unfold iblk1
  rw [View.read_apply]
  show (V c main_v27 : S100000x1.Idx → EReal) (((cfg1.win 1).blk t).view.emb (ix2 p z)) = _
  exact congrArg (V c main_v27 : S100000x1.Idx → EReal) (emb1_1 t p z)

theorem block1_2 (c : Dev nD) (t : Fin cfg1.N) (z : Fin 1) (q : Fin 64) :
    iblk1 V c 2 t (ix2 z q) = (V c main_v28 : S1x64.Idx → EReal) (ix2 z q) := by
  unfold iblk1
  rw [View.read_apply]
  show (V c main_v28 : S1x64.Idx → EReal) (((cfg1.win 2).blk t).view.emb (ix2 z q)) = _
  exact congrArg (V c main_v28 : S1x64.Idx → EReal) (emb1_2 t z q)

/-- What point t writes back is block t of the scaled rows plus the bias row, of the operand arrays as the launch
    finds them. -/
theorem flushed1_eq (c : Dev nD) (t : Fin cfg1.N) :
    (dat1 V c).flushed 3 t = ((cfg1.win 3).blk t).view.read (Elt Ideal)
      (scaleAddBias (V c main_v26) (V c main_v27) (V c main_v28)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S5000x1) zero_offsets,
    View.ld_unit_zero (S := S1x64) zero_offsets]
  funext y
  obtain ⟨p, q, rfl⟩ : ∃ (p : Fin 5000) (q : Fin 64), y = ix2 p q := ⟨y 0, y 1, eq_ix2 y⟩
  refine (Body.scaleAddBias_apply (iblk1 V c 0 t) (iblk1 V c 1 t) (iblk1 V c 2 t) p q).trans ?_
  rw [View.read_apply]
  show _ = scaleAddBias (V c main_v26) (V c main_v27) (V c main_v28) (((cfg1.win 3).blk t).view.emb (ix2 p q))
  rw [emb1_3 t p q, block1_0 V c t p q, block1_1 V c t p 0, block1_2 V c t 0 q]
  rfl

/-- An index of the result is in point t's block iff its row is among rows 5000·t … 5000·t + 4999. -/
theorem mem_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v29).slice (win1_3.rect t)).set ↔ _
  rw [View.set_slice_whole, Rect.mem_set_unit]
  exact Iff.rfl

/-- Every index of the result is in the block of the point its row falls in. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by omega
  obtain ⟨-, -, -, -, -, -, e0, e1⟩ := index_facts1 ⟨(i 0).val / 5000, ht⟩
  refine ⟨⟨(i 0).val / 5000, ht⟩, flush1_3 _, ?_⟩
  rw [mem_block1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, ht⟩ (1 : Fin 2) * 64 ≤ (i 1).val
      ∧ (i 1).val < win1_3.index ⟨(i 0).val / 5000, ht⟩ (1 : Fin 2) * 64 + 64
    rw [e1]
    omega

/-- After the second launch its result array is the scaled rows plus the bias row, of the operand arrays as it found
    them. -/
theorem final1 (c : Dev nD) :
    (dat1 V c).arrAt 3 cfg1.N = scaleAddBias (V c main_v26) (V c main_v27) (V c main_v28) :=
  (dat1 V c).arrAt_eq_of_cover 3 (scaleAddBias (V c main_v26) (V c main_v27) (V c main_v28))
    (fun t _ => flushed1_eq V c t) cover1

end Second

end Cert.KernelIdeal.Blocks

end
-- ==== Proof.HostReads.lean ====
/-
  The host operations around the two launches, read as functions of the arguments.

  Before the first launch the host computes, for each node, how often it occurs among the edges' sources and among
  their destinations (a scatter-add of ones into zeros), and from each count d the scale max(d, 1)^(-1/2); the
  source scale, re-shaped to a column, is the first launch's second operand. Between the launches it gathers the
  first launch's result at every edge's source row (a negative index counted from the end) and scatter-adds those
  rows at the edges' destinations into zeros; that aggregate, the destination scale as a column and the bias as a
  row are the second launch's operands. The scatter-adds, the gather and the power are carried here as they are
  printed: both programs apply the same ones.
-/
import proofs.«160085_j8624294330605_1_alg».proof.Proof.Gen.KernelIdeal.Frame
import Idealize.ShloMosaic.Lib.StableHlo.Run

noncomputable section

namespace Cert.KernelIdeal.HostReads

open Idealize.ShloMosaic Idealize.ShloMosaic.TcCoe Idealize.SL.Sem Idealize.ShloMosaic.StableHlo
open Cert.KernelIdeal Cert.KernelIdeal.Gen

variable {F : FTy → Type} [FloatOps F]

/-- Each node's scale from the list of edge endpoints: the number d of edges ending there, as max(d, 1)^(-1/2). -/
def degreeScale (idx : (⟨S1600000, .i32⟩ : BufTy).Contents (Elt F)) : (⟨S100000, .f32⟩ : BufTy).Contents (Elt F) :=
  Host.powf
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32)))
      (broadcastInDim S100000 ![] bcast_S_S100000 (constant S_ .f32 0x3F800000#32)))
    (broadcastInDim S100000 ![] bcast_S_S100000 (constant S_ .f32 0xBF000000#32))

/-- The rows of h gathered at every edge's source and summed at its destination. -/
def aggregate (h : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select
          (cmpi .slt src (broadcastInDim S1600000 ![] bcast_S_S1600000 (constantI S_ 32 0#32)))
          (addi src (broadcastInDim S1600000 ![] bcast_S_S1600000 (constantI S_ 32 100000#32)))
          src)))

variable (m : (ℓ : Loc nD τ sig) → Buf (Elt F) ℓ) (ρ : Dev nD → PrngReg)

/-! ## What the first launch finds -/

theorem entry0_x (c : Dev nD) : V1 m ρ c main_arg0 = m ((c.tc : Thread nD τ).loc main_arg0) := by
  show StableHlo.after hostOps0 (W0 m ρ c) (Proc.devRef .tc main_arg0) = _
  dsimp only [hostOps0]
  after_results

theorem entry0_w (c : Dev nD) : V1 m ρ c main_arg1 = m ((c.tc : Thread nD τ).loc main_arg1) := by
  show StableHlo.after hostOps0 (W0 m ρ c) (Proc.devRef .tc main_arg1) = _
  dsimp only [hostOps0]
  after_results

theorem entry0_scale (c : Dev nD) :
    V1 m ρ c main_v15 = shapeCast S100000x1 (degreeScale (m ((c.tc : Thread nD τ).loc main_arg3))) shapeCasts_S100000_S100000x1 := by
  show StableHlo.after hostOps0 (W0 m ρ c) (Proc.devRef .tc main_v15) = _
  dsimp only [hostOps0]
  after_results
  rfl

/-- The destination scale, computed before the first launch. -/
theorem entry0_dstScale (c : Dev nD) :
    W1 m ρ c (Proc.devRef .tc main_v14) = degreeScale (m ((c.tc : Thread nD τ).loc main_arg4)) := by
  show StableHlo.after hostOps0 (W0 m ρ c) (Proc.devRef .tc main_v14) = _
  dsimp only [hostOps0]
  after_results
  rfl

theorem entry0_src (c : Dev nD) : W1 m ρ c (Proc.devRef .tc main_arg3) = m ((c.tc : Thread nD τ).loc main_arg3) := by
  show StableHlo.after hostOps0 (W0 m ρ c) (Proc.devRef .tc main_arg3) = _
  dsimp only [hostOps0]
  after_results

theorem entry0_dst (c : Dev nD) : W1 m ρ c (Proc.devRef .tc main_arg4) = m ((c.tc : Thread nD τ).loc main_arg4) := by
  show StableHlo.after hostOps0 (W0 m ρ c) (Proc.devRef .tc main_arg4) = _
  dsimp only [hostOps0]
  after_results

theorem entry0_bias (c : Dev nD) : W1 m ρ c (Proc.devRef .tc main_arg2) = m ((c.tc : Thread nD τ).loc main_arg2) := by
  show StableHlo.after hostOps0 (W0 m ρ c) (Proc.devRef .tc main_arg2) = _
  dsimp only [hostOps0]
  after_results

/-! ## What the second launch finds -/

theorem entry1_agg (c : Dev nD) :
    V3 m ρ c main_v26 = aggregate (W2 m ρ c (Proc.devRef .tc main_v16)) (m ((c.tc : Thread nD τ).loc main_arg3))
      (m ((c.tc : Thread nD τ).loc main_arg4)) := by
  show StableHlo.after hostOps1 (W2 m ρ c) (Proc.devRef .tc main_v26) = _
  dsimp only [hostOps1]
  after_results
  rw [W2_of_ne m ρ c main_arg3 (by decide), W2_of_ne m ρ c main_arg4 (by decide), entry0_src, entry0_dst]
  rfl

theorem entry1_scale (c : Dev nD) :
    V3 m ρ c main_v27 = shapeCast S100000x1 (degreeScale (m ((c.tc : Thread nD τ).loc main_arg4))) shapeCasts_S100000_S100000x1 := by
  show StableHlo.after hostOps1 (W2 m ρ c) (Proc.devRef .tc main_v27) = _
  dsimp only [hostOps1]
  after_results
  rw [W2_of_ne m ρ c main_v14 (by decide), entry0_dstScale]
  rfl

theorem entry1_bias (c : Dev nD) :
    V3 m ρ c main_v28 = shapeCast S1x64 (m ((c.tc : Thread nD τ).loc main_arg2)) shapeCasts_S64_S1x64 := by
  show StableHlo.after hostOps1 (W2 m ρ c) (Proc.devRef .tc main_v28) = _
  dsimp only [hostOps1]
  after_results
  rw [W2_of_ne m ρ c main_arg2 (by decide), entry0_bias]
  rfl

end Cert.KernelIdeal.HostReads

end
-- ==== Proof.KernelRun.lean ====
/-
  The kernel's run with its result named.

  The program is four segments — host operations, the first launch, host operations, the second launch — and the
  contents of every buffer at each boundary are a fold from the launch memory. The generated frame reads the
  arguments out of the last boundary's contents; here the same run is read at the result buffer too: it ends at the
  last boundary's contents of the second launch's output array.
-/
import proofs.«160085_j8624294330605_1_alg».proof.Proof.Gen.KernelIdeal.Frame

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.KernelValue.lean ====
/-
  The kernel's result as one function of its arguments, on the extended reals.

  Reading the boundaries back to front: the result is the second launch's output, rows of the aggregate scaled by
  the destination scale plus the bias; the aggregate is the host's gather and scatter-add of the first launch's
  output; and that output is the scaled product of the features, the source scale and the weights.
-/
import proofs.«160085_j8624294330605_1_alg».proof.Proof.Blocks
import proofs.«160085_j8624294330605_1_alg».proof.Proof.HostReads
import proofs.«160085_j8624294330605_1_alg».proof.Proof.KernelRun

noncomputable section

namespace Cert.KernelIdeal.Result

open Idealize.ShloMosaic Idealize.ShloMosaic.TcCoe Idealize.SL.Sem
open Cert.KernelIdeal Cert.KernelIdeal.Gen

/-- The graph-convolution layer as the kernel computes it: scale the features' rows by the source scale and multiply
    by the weights; sum the rows over the edges into their destinations; scale by the destination scale and add the
    bias. -/
def layer (x : S100000x128.Idx → EReal) (w : S128x64.Idx → EReal) (bias : S64.Idx → EReal)
    (src dst : (⟨S1600000, .i32⟩ : BufTy).Contents (Elt Ideal)) : S100000x64.Idx → EReal :=
  Blocks.scaleAddBias
    (HostReads.aggregate (F := Ideal)
      (Blocks.scaledProduct x (shapeCast S100000x1 (HostReads.degreeScale (F := Ideal) src) shapeCasts_S100000_S100000x1) w)
      src dst)
    (shapeCast S100000x1 (HostReads.degreeScale (F := Ideal) dst) shapeCasts_S100000_S100000x1)
    (shapeCast S1x64 bias shapeCasts_S64_S1x64)

variable (m : (ℓ : Loc nD τ sig) → Buf (Elt Ideal) ℓ) (ρ : Dev nD → PrngReg)

/-- After the first launch its output array is the scaled product of the arguments. -/
theorem first_output (c : Dev nD) :
    W2 m ρ c (Proc.devRef .tc main_v16) = Blocks.scaledProduct (m ((c.tc : Thread nD τ).loc main_arg0))
      (shapeCast S100000x1 (HostReads.degreeScale (F := Ideal) (m ((c.tc : Thread nD τ).loc main_arg3))) shapeCasts_S100000_S100000x1)
      (m ((c.tc : Thread nD τ).loc main_arg1)) := by
  refine (W2_arr m ρ c 3).trans ((Blocks.final0 (V1 m ρ) c).trans ?_)
  rw [HostReads.entry0_x, HostReads.entry0_scale, HostReads.entry0_w]

/-- The last boundary's contents of the result buffer are the layer of the arguments. -/
theorem last_contents (c : Dev nD) :
    W4 m ρ c (Proc.devRef .tc main_v29) = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (W4_arr m ρ c 3).trans ((Blocks.final1 (V3 m ρ) c).trans ?_)
  rw [HostReads.entry1_agg, HostReads.entry1_scale, HostReads.entry1_bias, first_output]
  rfl

/-- The kernel's run: the result buffer ends at the layer of the arguments, the arguments as launched. -/
theorem run : θ_run defs (onTc (τ := τ) (main (F := Ideal))) ⟨m, fun _ => 0, ρ⟩ (fun r => ∀ c : Dev nD,
      r.2.mem ((c.tc : Thread nD τ).loc main_v29) = layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (last_contents m ρ c), (h c).2⟩) (Run.run_result m ρ)

end Cert.KernelIdeal.Result

end
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«160085_j8624294330605_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.RefValue.lean ====
/-
  The reference's result is the kernel's function of the arguments, on the extended reals.

  The reference computes the same degree scales, gather and scatter-add with the same host operations; it differs
  in two places. It scales the features by the source scale broadcast on the host and takes ONE product with the
  weights, where the kernel scales and multiplies 5000 rows at a time: entry (i, j) of either is
  Σ_k (x(i, k) · n(i)) · W(k, j), a sum over the contracted index with no accumulator. And it broadcasts the
  destination scale and the bias to the full array on the host before multiplying and adding, where the kernel's
  body broadcasts a column and a row: entry (i, j) of either is a(i, j) · n(i) + b(j). No law of arithmetic beyond
  reading each operation at an index is used, so nothing is asked of the inputs.
-/
import proofs.«160085_j8624294330605_1_alg».proof.Proof.Gen.ReferenceIdeal.Run
import proofs.«160085_j8624294330605_1_alg».proof.Proof.KernelValue
import proofs.«160085_j8624294330605_1_alg».proof.Proof.LibMatProd
import proofs.«160085_j8624294330605_1_alg».proof.Proof.LibRowScale

open scoped BigOperators

noncomputable section

namespace Cert.ReferenceIdeal.RefValue

open Idealize.ShloMosaic Idealize.ShloMosaic.ValueIdx
open Cert.ReferenceIdeal Cert.ReferenceIdeal.Gen

/-- The host's product of the scaled features with the weights is the kernel's scaled product: both are, at (i, j),
    the sum over k of (x(i, k) · n(i)) · W(k, j). -/
theorem product_eq (x : FVec Ideal S100000x128 .f32) (n : FVec Ideal S100000 .f32) (w : FVec Ideal S128x64 .f32) :
    Host.dotGeneral dot_S100000x128_S128x64_S100000x64_1_0_0_1_n_n none
      (mulf x (broadcastInDim S100000x128 ![0, 1] bcast_S100000x1_S100000x128_0_1
        (broadcastInDim S100000x1 ![0] bcast_S100000_S100000x1_0 n))) w
    = Cert.KernelIdeal.Blocks.scaledProduct x
        (shapeCast Cert.KernelIdeal.S100000x1 n Cert.KernelIdeal.Gen.shapeCasts_S100000_S100000x1) w := by
  refine (Cert.Lib.MatProd.dotGeneral_eq_matProd dot_S100000x128_S128x64_S100000x64_1_0_0_1_n_n rfl rfl rfl rfl rfl rfl
    none .single _ _).trans ?_
  funext i
  obtain ⟨p, q, rfl⟩ : ∃ (p : Fin 100000) (q : Fin 64), i = ix2 p q := ⟨i 0, i 1, eq_ix2 i⟩
  rw [Cert.Lib.MatProd.matProd_apply]
  show _ = ∑ k : Fin 128, (x (ix2 p k) * shapeCast Cert.KernelIdeal.S100000x1 n
    Cert.KernelIdeal.Gen.shapeCasts_S100000_S100000x1 (ix2 p 0)) * w (ix2 k q)
  refine Finset.sum_congr rfl fun k _ => ?_
  rw [mulf_apply, Cert.Lib.RowScale.bcast_col_apply, Cert.Lib.RowScale.column_apply,
    Cert.Lib.RowScale.reshape_column_apply]

/-- The host's scaling of the aggregate's rows and adding of the bias is the kernel's: both are, at (i, j),
    a(i, j) · n(i) + b(j). -/
theorem scale_bias_eq (a : FVec Ideal S100000x64 .f32) (n : FVec Ideal S100000 .f32) (b : FVec Ideal S64 .f32) :
    addf (mulf a (broadcastInDim S100000x64 ![0, 1] bcast_S100000x1_S100000x64_0_1
        (broadcastInDim S100000x1 ![0] bcast_S100000_S100000x1_0 n)))
      (broadcastInDim S100000x64 ![0, 1] bcast_S1x64_S100000x64_0_1 (broadcastInDim S1x64 ![1] bcast_S64_S1x64_1 b))
    = Cert.KernelIdeal.Blocks.scaleAddBias a
        (shapeCast Cert.KernelIdeal.S100000x1 n Cert.KernelIdeal.Gen.shapeCasts_S100000_S100000x1)
        (shapeCast Cert.KernelIdeal.S1x64 b Cert.KernelIdeal.Gen.shapeCasts_S64_S1x64) := by
  funext i
  obtain ⟨p, q, rfl⟩ : ∃ (p : Fin 100000) (q : Fin 64), i = ix2 p q := ⟨i 0, i 1, eq_ix2 i⟩
  show _ = a (ix2 p q) * shapeCast Cert.KernelIdeal.S100000x1 n Cert.KernelIdeal.Gen.shapeCasts_S100000_S100000x1 (ix2 p 0)
    + shapeCast Cert.KernelIdeal.S1x64 b Cert.KernelIdeal.Gen.shapeCasts_S64_S1x64 (ix2 0 q)
  rw [addf_apply, mulf_apply, Cert.Lib.RowScale.bcast_col_apply, Cert.Lib.RowScale.column_apply,
    Cert.Lib.RowScale.bcast_row_apply, Cert.Lib.RowScale.row_apply,
    Cert.Lib.RowScale.reshape_column_apply, Cert.Lib.RowScale.reshape_row_apply]

/-- The reference run's result term is the kernel's layer of the same arguments. -/
theorem result_eq (x : FVec Ideal S100000x128 .f32) (w : FVec Ideal S128x64 .f32) (bias : FVec Ideal S64 .f32)
    (src dst : (⟨S1600000, .i32⟩ : BufTy).Contents (Elt Ideal)) :
    addf (mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 (Host.dotGeneral dot_S100000x128_S128x64_S100000x64_1_0_0_1_n_n none (mulf x (broadcastInDim S100000x128 ![0, 1] bcast_S100000x1_S100000x128_0_1 (broadcastInDim S100000x1 ![0] bcast_S100000_S100000x1_0 (Host.powf (maximumf (Host.scatterAdd scatter_S100000_S1600000x1_S1600000_n_0_0_1 (broadcastInDim S100000 ![] bcast_S_S100000 (constant S_ .f32 0x00000000#32)) (broadcastInDim S1600000x1 ![0] bcast_S1600000_S1600000x1_0 src) (broadcastInDim S1600000 ![] bcast_S_S1600000 (constant S_ .f32 0x3F800000#32))) (broadcastInDim S100000 ![] bcast_S_S100000 (constant S_ .f32 0x3F800000#32))) (broadcastInDim S100000 ![] bcast_S_S100000 (constant S_ .f32 0xBF000000#32)))))) w) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (broadcastInDim S100000x1 ![0] bcast_S100000_S100000x1_0 (Host.powf (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))) (broadcastInDim S100000 ![] bcast_S_S100000 (constant S_ .f32 0xBF000000#32)))))) (broadcastInDim S100000x64 ![0, 1] bcast_S1x64_S100000x64_0_1 (broadcastInDim S1x64 ![1] bcast_S64_S1x64_1 bias))
    = Cert.KernelIdeal.Result.layer x w bias src dst := by
  show addf (mulf
      (Cert.KernelIdeal.HostReads.aggregate (F := Ideal)
        (Host.dotGeneral dot_S100000x128_S128x64_S100000x64_1_0_0_1_n_n none
          (mulf x (broadcastInDim S100000x128 ![0, 1] bcast_S100000x1_S100000x128_0_1
            (broadcastInDim S100000x1 ![0] bcast_S100000_S100000x1_0 (Cert.KernelIdeal.HostReads.degreeScale (F := Ideal) src)))) w)
        src dst)
      (broadcastInDim S100000x64 ![0, 1] bcast_S100000x1_S100000x64_0_1
        (broadcastInDim S100000x1 ![0] bcast_S100000_S100000x1_0 (Cert.KernelIdeal.HostReads.degreeScale (F := Ideal) dst))))
    (broadcastInDim S100000x64 ![0, 1] bcast_S1x64_S100000x64_0_1 (broadcastInDim S1x64 ![1] bcast_S64_S1x64_1 bias)) = _
  rw [product_eq, scale_bias_eq]
  rfl

end Cert.ReferenceIdeal.RefValue

end
-- ==== Proof.lean ====
/-
  A graph-convolution layer with symmetric degree normalisation, as a kernel and as its plain reference, computes one
  function on the extended reals.

  Both programs count, for every one of the 100000 nodes, the edges leaving it and the edges entering it, and take
  from each count d the scale max(d, 1)^(-1/2). Both scale each node's 128 features by its source scale, multiply
  by the 128×64 weights, sum the resulting rows over the 1600000 edges from source to destination, scale each
  node's sum by its destination scale and add the bias. The counting, the gather and the scatter-add are the same
  host operations in both. The kernel does the scaled product and the final scale-and-bias in two launches, each
  over 20 blocks of 5000 rows; the reference does them as whole-array host operations. Since an entry of either
  stage depends only on its own row (and the shared weights or bias), the blocks assemble to the whole-array
  functions, and these are the reference's, index by index: the product is the same sum over the contracted index,
  the narrowing of its operands to bf16 being the identity on the extended reals, and the broadcasts read the same
  entries. Nothing is asked of the inputs beyond what the statement assumes, and that assumption is not used.

  The three frames are the generated ones (the reference's being its generated run with the result dropped), and
  the idealisation rewrote nothing, so it preserves the kernel trivially.
-/
import proofs.«160085_j8624294330605_1_alg».proof.Defs
import proofs.«160085_j8624294330605_1_alg».proof.Proof.Gen.Kernel
import proofs.«160085_j8624294330605_1_alg».proof.Proof.Gen.Kernel.Skeleton
import proofs.«160085_j8624294330605_1_alg».proof.Proof.Gen.Kernel.Launch
import proofs.«160085_j8624294330605_1_alg».proof.Proof.Gen.Kernel.Points
import proofs.«160085_j8624294330605_1_alg».proof.Proof.Gen.Kernel.Frame
import proofs.«160085_j8624294330605_1_alg».proof.Proof.Gen.KernelIdeal
import proofs.«160085_j8624294330605_1_alg».proof.Proof.Gen.KernelIdeal.Skeleton
import proofs.«160085_j8624294330605_1_alg».proof.Proof.Gen.KernelIdeal.Launch
import proofs.«160085_j8624294330605_1_alg».proof.Proof.Gen.KernelIdeal.Points
import proofs.«160085_j8624294330605_1_alg».proof.Proof.Gen.KernelIdeal.Frame
import proofs.«160085_j8624294330605_1_alg».proof.Proof.Gen.ReferenceIdeal
import proofs.«160085_j8624294330605_1_alg».proof.Proof.Gen.ReferenceIdeal.Run
import proofs.«160085_j8624294330605_1_alg».proof.Proof.Gen.Pre_finite_inputs
import proofs.«160085_j8624294330605_1_alg».proof.Proof.KernelValue
import proofs.«160085_j8624294330605_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel's result array ends at the layer of its arguments and the
    reference's at its composed host term of the same arguments: one function. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
